-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x2048 : Shape := ⟨2, ![16384, 2048]⟩
abbrev S16384 : Shape := ⟨1, ![16384]⟩
abbrev S8x2048x2048 : Shape := ⟨3, ![8, 2048, 2048]⟩
abbrev S8x1024x2048 : Shape := ⟨3, ![8, 1024, 2048]⟩
abbrev S_ : Shape := ⟨0, ![]⟩

class Facts : Prop where
  bcast_S_S16384x2048 : S_.BroadcastsInDim S16384x2048 (![] : Fin 0 → Fin S16384x2048.rank)
  reducesTo_S16384x2048_S_d0_1 : S16384x2048.ReducesTo [0, 1] S_
  h_S_ : 0 < S_.numel
  bcast_S_S8x2048x2048 : S_.BroadcastsInDim S8x2048x2048 (![] : Fin 0 → Fin S8x2048x2048.rank)
  reducesTo_S8x2048x2048_S_d0_1_2 : S8x2048x2048.ReducesTo [0, 1, 2] S_
  bcast_S_S8x1024x2048 : S_.BroadcastsInDim S8x1024x2048 (![] : Fin 0 → Fin S8x1024x2048.rank)
  reducesTo_S8x1024x2048_S_d0_1_2 : S8x1024x2048.ReducesTo [0, 1, 2] S_

variable [Facts]

def fn {F : FTy → Type} [FloatOps F] (main_arg0 : FVec F S16384x2048 .f32) (main_arg1 : IVec S16384 32) (main_arg2 : FVec F S8x2048x2048 .f32) (main_arg3 : FVec F S8x1024x2048 .f32) : IVec S_ 1 :=
  let main_v0 : FVec F S16384x2048 .f32 := Host.absf main_arg0
  let main_cst : FVec F S_ .f32 := constant S_ .f32 0x7F800000#32
  let main_v1 : FVec F S16384x2048 .f32 := broadcastInDim S16384x2048 ![] bcast_S_S16384x2048 main_cst
  let main_v2 : IVec S16384x2048 1 := cmpf .olt main_v0 main_v1
  let main_c : IVec S_ 1 := constantI S_ 1 1#1
  let main_v3 : IVec S_ 1 := (fun x v => Host.reduce IntOp.andi x v reducesTo_S16384x2048_S_d0_1 h_S_) main_v2 main_c
  let main_v4 : FVec F S8x2048x2048 .f32 := Host.absf main_arg2
  let main_cst_0 : FVec F S_ .f32 := constant S_ .f32 0x7F800000#32
  let main_v5 : FVec F S8x2048x2048 .f32 := broadcastInDim S8x2048x2048 ![] bcast_S_S8x2048x2048 main_cst_0
  let main_v6 : IVec S8x2048x2048 1 := cmpf .olt main_v4 main_v5
  let main_c_1 : IVec S_ 1 := constantI S_ 1 1#1
  let main_v7 : IVec S_ 1 := (fun x v => Host.reduce IntOp.andi x v reducesTo_S8x2048x2048_S_d0_1_2 h_S_) main_v6 main_c_1
  let main_v8 : IVec S_ 1 := andi main_v3 main_v7
  let main_v9 : FVec F S8x1024x2048 .f32 := Host.absf main_arg3
  let main_cst_2 : FVec F S_ .f32 := constant S_ .f32 0x7F800000#32
  let main_v10 : FVec F S8x1024x2048 .f32 := broadcastInDim S8x1024x2048 ![] bcast_S_S8x1024x2048 main_cst_2
  let main_v11 : IVec S8x1024x2048 1 := cmpf .olt main_v9 main_v10
  let main_c_3 : IVec S_ 1 := constantI S_ 1 1#1
  let main_v12 : IVec S_ 1 := (fun x v => Host.reduce IntOp.andi x v reducesTo_S8x1024x2048_S_d0_1_2 h_S_) main_v11 main_c_3
  let main_v13 : IVec S_ 1 := andi main_v8 main_v12
  main_v13
-- ==== Kernel.lean ====
abbrev S16384x2048 : Shape := ⟨2, ![16384, 2048]⟩
abbrev S16384 : Shape := ⟨1, ![16384]⟩
abbrev S8x2048x2048 : Shape := ⟨3, ![8, 2048, 2048]⟩
abbrev S8x1024x2048 : Shape := ⟨3, ![8, 1024, 2048]⟩
abbrev S_ : Shape := ⟨0, ![]⟩
abbrev S16384x1 : Shape := ⟨2, ![16384, 1]⟩
abbrev S1x512x2048 : Shape := ⟨3, ![1, 512, 2048]⟩
abbrev S1x2048x2048 : Shape := ⟨3, ![1, 2048, 2048]⟩
abbrev S1x1024x2048 : Shape := ⟨3, ![1, 1024, 2048]⟩
abbrev S512x2048 : Shape := ⟨2, ![512, 2048]⟩
abbrev S2048x2048 : Shape := ⟨2, ![2048, 2048]⟩
abbrev S512x1024 : Shape := ⟨2, ![512, 1024]⟩
abbrev S1024x2048 : Shape := ⟨2, ![1024, 2048]⟩

abbrev nBuf : Space → Nat
  | .hbm => 30
  | .vmem => 8
  | .smem => 0
  | _ => 0

abbrev bufTy : (tb : Table) → Fin (tcTables nBuf tb) → BufTy
  | .hbm, ⟨0, _⟩ => ⟨S16384x2048, .f32⟩
  | .hbm, ⟨1, _⟩ => ⟨S16384, .i32⟩
  | .hbm, ⟨2, _⟩ => ⟨S8x2048x2048, .f32⟩
  | .hbm, ⟨3, _⟩ => ⟨S8x1024x2048, .f32⟩
  | .hbm, ⟨4, _⟩ => ⟨S_, .i32⟩
  | .hbm, ⟨5, _⟩ => ⟨S16384, .i32⟩
  | .hbm, ⟨6, _⟩ => ⟨S16384, .i1⟩
  | .hbm, ⟨7, _⟩ => ⟨S_, .i32⟩
  | .hbm, ⟨8, _⟩ => ⟨S16384, .i32⟩
  | .hbm, ⟨9, _⟩ => ⟨S16384, .i32⟩
  | .hbm, ⟨10, _⟩ => ⟨S16384, .i32⟩
  | .hbm, ⟨11, _⟩ => ⟨S16384x1, .i32⟩
  | .hbm, ⟨12, _⟩ => ⟨S16384x2048, .f32⟩
  | .hbm, ⟨13, _⟩ => ⟨S8x2048x2048, .f32⟩
  | .hbm, ⟨14, _⟩ => ⟨S8x2048x2048, .bf16⟩
  | .hbm, ⟨15, _⟩ => ⟨S8x2048x2048, .bf16⟩
  | .hbm, ⟨16, _⟩ => ⟨S8x1024x2048, .bf16⟩
  | .hbm, ⟨17, _⟩ => ⟨S8x2048x2048, .f32⟩
  | .hbm, ⟨18, _⟩ => ⟨S16384x2048, .f32⟩
  | .hbm, ⟨19, _⟩ => ⟨S_, .f32⟩
  | .hbm, ⟨20, _⟩ => ⟨S16384x2048, .f32⟩
  | .hbm, ⟨21, _⟩ => ⟨S_, .i32⟩
  | .hbm, ⟨22, _⟩ => ⟨S16384, .i32⟩
  | .hbm, ⟨23, _⟩ => ⟨S16384, .i1⟩
  | .hbm, ⟨24, _⟩ => ⟨S_, .i32⟩
  | .hbm, ⟨25, _⟩ => ⟨S16384, .i32⟩
  | .hbm, ⟨26, _⟩ => ⟨S16384, .i32⟩
  | .hbm, ⟨27, _⟩ => ⟨S16384, .i32⟩
  | .hbm, ⟨28, _⟩ => ⟨S16384x1, .i32⟩
  | .hbm, ⟨29, _⟩ => ⟨S16384x2048, .f32⟩
  | .local _ .vmem, ⟨0, _⟩ => ⟨S1x512x2048, .bf16⟩
  | .local _ .vmem, ⟨1, _⟩ => ⟨S1x512x2048, .bf16⟩
  | .local _ .vmem, ⟨2, _⟩ => ⟨S1x2048x2048, .bf16⟩
  | .local _ .vmem, ⟨3, _⟩ => ⟨S1x2048x2048, .bf16⟩
  | .local _ .vmem, ⟨4, _⟩ => ⟨S1x1024x2048, .bf16⟩
  | .local _ .vmem, ⟨5, _⟩ => ⟨S1x1024x2048, .bf16⟩
  | .local _ .vmem, ⟨6, _⟩ => ⟨S1x512x2048, .f32⟩
  | .local _ .vmem, ⟨7, _⟩ => ⟨S1x512x2048, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst : Ref sig .tc := ⟨.hbm, 19, rfl⟩
abbrev main_v13 : Ref sig .tc := ⟨.hbm, 20, rfl⟩
abbrev main_c_1 : Ref sig .tc := ⟨.hbm, 21, rfl⟩
abbrev main_v14 : Ref sig .tc := ⟨.hbm, 22, rfl⟩
abbrev main_v15 : Ref sig .tc := ⟨.hbm, 23, rfl⟩
abbrev main_c_2 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  bcast_S_S16384 : S_.BroadcastsInDim S16384 (![] : Fin 0 → Fin S16384.rank)
  bcast_S16384_S16384x1_0 : S16384.BroadcastsInDim S16384x1 (![0] : Fin 1 → Fin S16384x1.rank)
  shapeCasts_S16384x2048_S8x2048x2048 : S16384x2048.ShapeCasts S8x2048x2048
  bitsLt_bf16_f32 : FTy.bits .bf16 < FTy.bits .f32
  inb_S1x512x2048_S1x512x2048_0_0_0 : ∀ a, (![0, 0, 0] : Fin 3 → Nat) a + S1x512x2048.size a ≤ S1x512x2048.size a
  h_S1x512x2048 : 0 < S1x512x2048.numel
  shapeCasts_S1x512x2048_S512x2048 : S1x512x2048.ShapeCasts S512x2048
  inb_S1x2048x2048_S1x2048x2048_0_0_0 : ∀ a, (![0, 0, 0] : Fin 3 → Nat) a + S1x2048x2048.size a ≤ S1x2048x2048.size a
  h_S1x2048x2048 : 0 < S1x2048x2048.numel
  shapeCasts_S1x2048x2048_S2048x2048 : S1x2048x2048.ShapeCasts S2048x2048
  slices_S512x2048_o0_0_S512x1024 : S512x2048.Slices ![0, 0] S512x1024
  slices_S512x2048_o0_1024_S512x1024 : S512x2048.Slices ![0, 1024] S512x1024
  inb_S1x1024x2048_S1x1024x2048_0_0_0 : ∀ a, (![0, 0, 0] : Fin 3 → Nat) a + S1x1024x2048.size a ≤ S1x1024x2048.size a
  h_S1x1024x2048 : 0 < S1x1024x2048.numel
  shapeCasts_S1x1024x2048_S1024x2048 : S1x1024x2048.ShapeCasts S1024x2048
  shapeCasts_S512x2048_S1x512x2048 : S512x2048.ShapeCasts S1x512x2048
  shapeCasts_S8x2048x2048_S16384x2048 : S8x2048x2048.ShapeCasts S16384x2048
  bcast_S_S16384x2048 : S_.BroadcastsInDim S16384x2048 (![] : Fin 0 → Fin S16384x2048.rank)
  gather_S16384x2048_S16384x1_S16384x2048_1_0_n_n_0_1_12048_wf : GatherDims.WF S16384x2048 S16384x1 S16384x2048 [1] [0] [] [0] [] 1 ![1, 2048]
  dot_S512x2048_S2048x2048_S512x2048_1_0_0_1_n_n_wf : DotDims.WF S512x2048 S2048x2048 S512x2048 [1] [0] [0] [1] [] []
  dot_S512x1024_S1024x2048_S512x2048_1_0_0_1_n_n_wf : DotDims.WF S512x1024 S1024x2048 S512x2048 [1] [0] [0] [1] [] []
  scatter_S16384x2048_S16384x1_S16384x2048_1_0_0_1_wf : ScatterDims.WF S16384x2048 S16384x1 S16384x2048 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x2048.size a ≤ S8x2048x2048.size a
  hwx0_0 : ∀ i : grid0.Coords, EltTy.bits .bf16 = 32 ∨ (Rect.block (s := S8x2048x2048) S1x512x2048.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x2048.size a ≤ S8x2048x2048.size a
  hwx0_1 : ∀ i : grid0.Coords, EltTy.bits .bf16 = 32 ∨ (Rect.block (s := S8x2048x2048) S1x2048x2048.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x2048.size a ≤ S8x1024x2048.size a
  hwx0_2 : ∀ i : grid0.Coords, EltTy.bits .bf16 = 32 ∨ (Rect.block (s := S8x1024x2048) S1x1024x2048.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x2048.size a ≤ S8x2048x2048.size a
  hwx0_3 : ∀ i : grid0.Coords, EltTy.bits .f32 = 32 ∨ (Rect.block (s := S8x2048x2048) S1x512x2048.size (cc0_transform_3 i) (hinb0_3 i)).WholeWords (EltTy.packing .f32)

variable [Facts₀]

def gather_S16384x2048_S16384x1_S16384x2048_1_0_n_n_0_1_12048 : GatherDims S16384x2048 S16384x1 S16384x2048 where
  offsetDims := [1]
  collapsedSliceDims := [0]
  operandBatchingDims := []
  startIndicesBatchingDims := []
  startIndexMap := [0]
  indexVectorDim := 1
  sliceSizes := ![1, 2048]
  wf := gather_S16384x2048_S16384x1_S16384x2048_1_0_n_n_0_1_12048_wf
def dot_S512x2048_S2048x2048_S512x2048_1_0_0_1_n_n : DotDims S512x2048 S2048x2048 S512x2048 where
  lhsContracting := [1]
  rhsContracting := [0]
  lhsNonContracting := [0]
  rhsNonContracting := [1]
  lhsBatch := []
  rhsBatch := []
  wf := dot_S512x2048_S2048x2048_S512x2048_1_0_0_1_n_n_wf
def dot_S512x1024_S1024x2048_S512x2048_1_0_0_1_n_n : DotDims S512x1024 S1024x2048 S512x2048 where
  lhsContracting := [1]
  rhsContracting := [0]
  lhsNonContracting := [0]
  rhsNonContracting := [1]
  lhsBatch := []
  rhsBatch := []
  wf := dot_S512x1024_S1024x2048_S512x2048_1_0_0_1_n_n_wf
def scatter_S16384x2048_S16384x1_S16384x2048_1_0_0_1 : ScatterDims S16384x2048 S16384x1 S16384x2048 where
  updateWindowDims := [1]
  insertedWindowDims := [0]
  scatterDimsToOperandDims := [0]
  indexVectorDim := 1
  wf := scatter_S16384x2048_S16384x1_S16384x2048_1_0_0_1_wf

abbrev win0_0 : Pipeline.Window sig grid0 :=
  Pipeline.Window.ofSpec (Memref.whole main_v8) S1x512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v9) S1x2048x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v10) S1x1024x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v11) S1x512x2048.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16384x2048 : Shape := ⟨2, ![16384, 2048]⟩
abbrev S16384 : Shape := ⟨1, ![16384]⟩
abbrev S8x2048x2048 : Shape := ⟨3, ![8, 2048, 2048]⟩
abbrev S8x1024x2048 : Shape := ⟨3, ![8, 1024, 2048]⟩
abbrev S_ : Shape := ⟨0, ![]⟩
abbrev S16384x1 : Shape := ⟨2, ![16384, 1]⟩
abbrev S8x2048x1024 : Shape := ⟨3, ![8, 2048, 1024]⟩

abbrev nBuf : Space → Nat
  | .hbm => 40
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S16384, .i32⟩
  | .hbm, ⟨2, _⟩ => ⟨S8x2048x2048, .f32⟩
  | .hbm, ⟨3, _⟩ => ⟨S8x1024x2048, .f32⟩
  | .hbm, ⟨4, _⟩ => ⟨S_, .i32⟩
  | .hbm, ⟨5, _⟩ => ⟨S16384, .i32⟩
  | .hbm, ⟨6, _⟩ => ⟨S16384, .i1⟩
  | .hbm, ⟨7, _⟩ => ⟨S_, .i32⟩
  | .hbm, ⟨8, _⟩ => ⟨S16384, .i32⟩
  | .hbm, ⟨9, _⟩ => ⟨S16384, .i32⟩
  | .hbm, ⟨10, _⟩ => ⟨S16384, .i32⟩
  | .hbm, ⟨11, _⟩ => ⟨S16384x1, .i32⟩
  | .hbm, ⟨12, _⟩ => ⟨S16384x2048, .f32⟩
  | .hbm, ⟨13, _⟩ => ⟨S8x2048x2048, .f32⟩
  | .hbm, ⟨14, _⟩ => ⟨S8x2048x2048, .f32⟩
  | .hbm, ⟨15, _⟩ => ⟨S8x2048x1024, .f32⟩
  | .hbm, ⟨16, _⟩ => ⟨S8x2048x1024, .f32⟩
  | .hbm, ⟨17, _⟩ => ⟨S8x2048x1024, .f32⟩
  | .hbm, ⟨18, _⟩ => ⟨S8x2048x1024, .f32⟩
  | .hbm, ⟨19, _⟩ => ⟨S_, .f32⟩
  | .hbm, ⟨20, _⟩ => ⟨S8x2048x1024, .f32⟩
  | .hbm, ⟨21, _⟩ => ⟨S8x2048x1024, .f32⟩
  | .hbm, ⟨22, _⟩ => ⟨S_, .f32⟩
  | .hbm, ⟨23, _⟩ => ⟨S8x2048x1024, .f32⟩
  | .hbm, ⟨24, _⟩ => ⟨S8x2048x1024, .f32⟩
  | .hbm, ⟨25, _⟩ => ⟨S8x2048x1024, .f32⟩
  | .hbm, ⟨26, _⟩ => ⟨S8x2048x1024, .f32⟩
  | .hbm, ⟨27, _⟩ => ⟨S8x2048x2048, .f32⟩
  | .hbm, ⟨28, _⟩ => ⟨S16384x2048, .f32⟩
  | .hbm, ⟨29, _⟩ => ⟨S_, .f32⟩
  | .hbm, ⟨30, _⟩ => ⟨S16384x2048, .f32⟩
  | .hbm, ⟨31, _⟩ => ⟨S_, .i32⟩
  | .hbm, ⟨32, _⟩ => ⟨S16384, .i32⟩
  | .hbm, ⟨33, _⟩ => ⟨S16384, .i1⟩
  | .hbm, ⟨34, _⟩ => ⟨S_, .i32⟩
  | .hbm, ⟨35, _⟩ => ⟨S16384, .i32⟩
  | .hbm, ⟨36, _⟩ => ⟨S16384, .i32⟩
  | .hbm, ⟨37, _⟩ => ⟨S16384, .i32⟩
  | .hbm, ⟨38, _⟩ => ⟨S16384x1, .i32⟩
  | .hbm, ⟨39, _⟩ => ⟨S16384x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_call0_v0 : Ref sig .tc := ⟨.hbm, 17, rfl⟩
abbrev main_call0_v1 : Ref sig .tc := ⟨.hbm, 18, rfl⟩
abbrev main_call0_cst : Ref sig .tc := ⟨.hbm, 19, rfl⟩
abbrev main_call0_v2 : Ref sig .tc := ⟨.hbm, 20, rfl⟩
abbrev main_call0_v3 : Ref sig .tc := ⟨.hbm, 21, rfl⟩
abbrev main_call0_cst_0 : Ref sig .tc := ⟨.hbm, 22, rfl⟩
abbrev main_call0_v4 : Ref sig .tc := ⟨.hbm, 23, rfl⟩
abbrev main_call0_v5 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_cst : Ref sig .tc := ⟨.hbm, 29, rfl⟩
abbrev main_v15 : Ref sig .tc := ⟨.hbm, 30, rfl⟩
abbrev main_c_1 : Ref sig .tc := ⟨.hbm, 31, rfl⟩
abbrev main_v16 : Ref sig .tc := ⟨.hbm, 32, rfl⟩
abbrev main_v17 : Ref sig .tc := ⟨.hbm, 33, rfl⟩
abbrev main_c_2 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩

abbrev nD : Nat := 1
abbrev τ : Topo := Topo.v7x

variable {F : FTy → Type} [FloatOps F]

class Facts₀ : Prop where
  bcast_S_S16384 : S_.BroadcastsInDim S16384 (![] : Fin 0 → Fin S16384.rank)
  bcast_S16384_S16384x1_0 : S16384.BroadcastsInDim S16384x1 (![0] : Fin 1 → Fin S16384x1.rank)
  shapeCasts_S16384x2048_S8x2048x2048 : S16384x2048.ShapeCasts S8x2048x2048
  slices_S8x2048x2048_S8x2048x1024_0_0_0 : S8x2048x2048.Slices ![0, 0, 0] S8x2048x1024
  slices_S8x2048x2048_S8x2048x1024_0_0_1024 : S8x2048x2048.Slices ![0, 0, 1024] S8x2048x1024
  bcast_S_S8x2048x1024 : S_.BroadcastsInDim S8x2048x1024 (![] : Fin 0 → Fin S8x2048x1024.rank)
  shapeCasts_S8x2048x2048_S16384x2048 : S8x2048x2048.ShapeCasts S16384x2048
  bcast_S_S16384x2048 : S_.BroadcastsInDim S16384x2048 (![] : Fin 0 → Fin S16384x2048.rank)
  gather_S16384x2048_S16384x1_S16384x2048_1_0_n_n_0_1_12048_wf : GatherDims.WF S16384x2048 S16384x1 S16384x2048 [1] [0] [] [0] [] 1 ![1, 2048]
  dot_S8x2048x2048_S8x2048x2048_S8x2048x2048_2_1_1_2_0_0_wf : DotDims.WF S8x2048x2048 S8x2048x2048 S8x2048x2048 [2] [1] [1] [2] [0] [0]
  dot_S8x2048x1024_S8x1024x2048_S8x2048x2048_2_1_1_2_0_0_wf : DotDims.WF S8x2048x1024 S8x1024x2048 S8x2048x2048 [2] [1] [1] [2] [0] [0]
  scatter_S16384x2048_S16384x1_S16384x2048_1_0_0_1_wf : ScatterDims.WF S16384x2048 S16384x1 S16384x2048 [1] [0] [0] 1

variable [Facts₀]

def gather_S16384x2048_S16384x1_S16384x2048_1_0_n_n_0_1_12048 : GatherDims S16384x2048 S16384x1 S16384x2048 where
  offsetDims := [1]
  collapsedSliceDims := [0]
  operandBatchingDims := []
  startIndicesBatchingDims := []
  startIndexMap := [0]
  indexVectorDim := 1
  sliceSizes := ![1, 2048]
  wf := gather_S16384x2048_S16384x1_S16384x2048_1_0_n_n_0_1_12048_wf
def dot_S8x2048x2048_S8x2048x2048_S8x2048x2048_2_1_1_2_0_0 : DotDims S8x2048x2048 S8x2048x2048 S8x2048x2048 where
  lhsContracting := [2]
  rhsContracting := [1]
  lhsNonContracting := [1]
  rhsNonContracting := [2]
  lhsBatch := [0]
  rhsBatch := [0]
  wf := dot_S8x2048x2048_S8x2048x2048_S8x2048x2048_2_1_1_2_0_0_wf
def dot_S8x2048x1024_S8x1024x2048_S8x2048x2048_2_1_1_2_0_0 : DotDims S8x2048x1024 S8x1024x2048 S8x2048x2048 where
  lhsContracting := [2]
  rhsContracting := [1]
  lhsNonContracting := [1]
  rhsNonContracting := [2]
  lhsBatch := [0]
  rhsBatch := [0]
  wf := dot_S8x2048x1024_S8x1024x2048_S8x2048x2048_2_1_1_2_0_0_wf
def scatter_S16384x2048_S16384x1_S16384x2048_1_0_0_1 : ScatterDims S16384x2048 S16384x1 S16384x2048 where
  updateWindowDims := [1]
  insertedWindowDims := [0]
  scatterDimsToOperandDims := [0]
  indexVectorDim := 1
  wf := scatter_S16384x2048_S16384x1_S16384x2048_1_0_0_1_wf

class Facts : Prop extends Facts₀ where

variable [Facts]
-- ==== Proof.Core.lean ====
/-
  A mixture-of-experts feed-forward layer, one output entry at a time.

  Tokens arrive grouped by expert: `X e r` is row `r` of expert `e`'s group, a vector of 2048 features. Expert `e` has a
  fused gate/up matrix `Wgu e` (2048 by 2048: columns 0..1023 are the gate half, columns 1024..2047 the up half) and a down
  matrix `Wd e` (1024 by 2048). With `g i = ∑ k, x k · Wgu k i` and `u i = ∑ k, x k · Wgu k (1024 + i)`, the output row is

      out h = ∑ i, ((g i · σ(g i)) · u i) · Wd i h,          σ(t) = 1 / (1 + e^(-t)),

  on the extended reals, where `σ` is total (`σ ⊥ = 0`, `σ ⊤ = 1`). Every entry depends on one token row, one expert's
  gate/up matrix and one column of its down matrix, so a tile of rows of one expert computes its entries without the others.
-/
import Idealize.ShloMosaic.PureOps.Ideal.Laws
import Idealize.ShloMosaic.Lib.ValueIdx

noncomputable section

namespace Cert.MoeSpec

open Idealize.ShloMosaic Idealize.ShloMosaic.ValueIdx
open scoped BigOperators

/-- Column `i` of the gate half of a fused gate/up matrix. -/
abbrev gateCol (i : Fin 1024) : Fin 2048 := ⟨i.val, by have := i.isLt; omega⟩

/-- Column `i` of the up half: 1024 columns further on. -/
abbrev upCol (i : Fin 1024) : Fin 2048 := ⟨1024 + i.val, by have := i.isLt; omega⟩

/-- One output entry: from a token row `x`, the expert's gate/up matrix `w` and one column `d` of its down matrix,
    `∑ i, ((g i · σ(g i)) · u i) · d i` with `g`, `u` the row's products with the two halves of `w`. -/
def entry (x : Fin 2048 → EReal) (w : Fin 2048 → Fin 2048 → EReal) (d : Fin 1024 → EReal) : EReal :=
  ∑ i : Fin 1024,
    (((∑ k : Fin 2048, x k * w k (gateCol i)) * Ideal.logistic (∑ k : Fin 2048, x k * w k (gateCol i)))
      * (∑ k : Fin 2048, x k * w k (upCol i))) * d i

/-- The layer on whole arrays: entry `(e, r, h)` is `entry` of row `r` of expert `e`'s tokens, expert `e`'s gate/up matrix
    and column `h` of expert `e`'s down matrix. -/
def core (X Wgu : (⟨3, ![8, 2048, 2048]⟩ : Shape).Idx → EReal) (Wd : (⟨3, ![8, 1024, 2048]⟩ : Shape).Idx → EReal) :
    (⟨3, ![8, 2048, 2048]⟩ : Shape).Idx → EReal :=
  fun j => entry (fun k => X (ix3 (j 0) (j 1) k)) (fun k f => Wgu (ix3 (j 0) k f)) (fun i => Wd (ix3 (j 0) i (j 2)))

theorem core_apply (X Wgu : (⟨3, ![8, 2048, 2048]⟩ : Shape).Idx → EReal) (Wd : (⟨3, ![8, 1024, 2048]⟩ : Shape).Idx → EReal)
    (e : Fin 8) (r h : Fin 2048) :
    core X Wgu Wd (ix3 e r h)
      = entry (fun k => X (ix3 e r k)) (fun k f => Wgu (ix3 e k f)) (fun i => Wd (ix3 e i h)) := rfl

/-- The single-precision word of the number one. -/
theorem one_word : Ideal.ofBits .f32 0x3F800000#32 = 1 := by
  simp [Ideal.ofBits, Ideal.ieee, -EReal.coe_mul]; norm_num

/-- `σ` is the quotient `1 / (1 + e^(-t))` written out, with the ones given as single-precision words. -/
theorem logistic_eq_quotient (t : EReal) :
    Ideal.logistic t
      = Ideal.div (Ideal.ofBits .f32 0x3F800000#32) (Ideal.ofBits .f32 0x3F800000#32 + Ideal.exp (-t)) := by
  rw [one_word]; rfl

end Cert.MoeSpec

end
-- ==== Proof.LibPlainMatmul.lean ====
/-
  A plain matrix product read at an entry.

  For the dimension numbers "contract the left operand's second axis with the right operand's first" an `[M, K]` by
  `[K, N]` product, accumulated into a zero array, has at row `p` and column `c` the entry
  `∑ k, W p k · X k c` over the extended reals: the contraction position is its one coordinate `k`, the left operand is
  read at `(p, k)` and the right one at `(k, c)`. The same reading holds of a host `dot_general` with those dimension
  numbers, which has no accumulator.
-/
import Idealize.ShloMosaic.PureOps.Ideal.Laws
import Idealize.ShloMosaic.Lib.ValueIdx

noncomputable section

namespace Cert.LibPlainMatmul

open Idealize.ShloMosaic Idealize.ShloMosaic.ValueIdx
open scoped BigOperators

variable (M K N : ℕ)

/-- The left operand's row coordinate is the result's row. -/
theorem lhs_row (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin 2) ∈ (DotDims.plain M K N).lhsBatch from List.not_mem_nil),
    dif_pos (show (0 : Fin 2) ∈ (DotDims.plain M K N).lhsNonContracting from List.mem_singleton.mpr rfl)]
  rfl

/-- The left operand's column coordinate is the contraction position. -/
theorem lhs_col (j : (⟨2, ![M, N]⟩ : Shape).Idx) (q : (DotDims.plain M K N).contr.Idx) :
    ((DotDims.plain M K N).lhsIdx j q 1).val = (q ⟨0, Nat.one_pos⟩).val :=
  (DotDims.plain M K N).lhsIdx_val_of_single rfl j q

/-- The right operand's row coordinate is the contraction position. -/
theorem rhs_row (j : (⟨2, ![M, N]⟩ : Shape).Idx) (q : (DotDims.plain M K N).contr.Idx) :
    ((DotDims.plain M K N).rhsIdx j q 0).val = (q ⟨0, Nat.one_pos⟩).val :=
  (DotDims.plain M K N).rhsIdx_val_of_single rfl j q

/-- The right operand's column coordinate is the result's column. -/
theorem rhs_col (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin 2) ∈ (DotDims.plain M K N).rhsBatch from List.not_mem_nil),
    dif_pos (show (1 : Fin 2) ∈ (DotDims.plain M K N).rhsNonContracting from List.mem_singleton.mpr rfl)]
  rfl

/-- The sum over the contraction positions, re-indexed by the one coordinate. -/
theorem sum_contr {φ₁ φ₂ : FTy} (W : FVec Ideal ⟨2, ![M, K]⟩ φ₁) (X : FVec Ideal ⟨2, ![K, N]⟩ φ₂) (p : Fin M) (c : Fin N) :
    (∑ q : (DotDims.plain M K N).contr.Idx,
        W ((DotDims.plain M K N).lhsIdx (ix2 p c) q) * X ((DotDims.plain M K N).rhsIdx (ix2 p c) q))
      = ∑ k : Fin K, W (ix2 p k) * X (ix2 k c) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p c) ((contrEquiv1 (DotDims.plain M K N) K rfl rfl).symm k) = ix2 p k :=
    funext fun a => Fin.ext (by
      match a with
      | ⟨0, _⟩ => exact lhs_row M K N _ _
      | ⟨1, _⟩ => exact (lhs_col M K N _ _).trans hk)
  have er : (DotDims.plain M K N).rhsIdx (ix2 p c) ((contrEquiv1 (DotDims.plain M K N) K rfl rfl).symm k) = ix2 k c :=
    funext fun a => Fin.ext (by
      match a with
      | ⟨0, _⟩ => exact (rhs_row M K N _ _).trans hk
      | ⟨1, _⟩ => exact rhs_col M K N _ _)
  rw [el, er]

/-- A kernel's matrix product into a zero accumulator, at an entry. -/
theorem matmul_zero_apply {φ₁ φ₂ : FTy} (prec : Option ContractPrecision) (W : FVec Ideal ⟨2, ![M, K]⟩ φ₁)
    (X : FVec Ideal ⟨2, ![K, N]⟩ φ₂) (p : Fin M) (c : Fin N) :
    matmul (DotDims.plain M K N) prec W X (constant (F := Ideal) ⟨2, ![M, N]⟩ .f32 0x00000000#32) (ix2 p c)
      = ∑ k : Fin K, W (ix2 p k) * X (ix2 k c) := by
  simp only [matmul]
  rw [Ideal.matmul_constant_zero_apply]
  exact sum_contr M K N W X p c

/-- The same with each product's factors swapped: the form in which a product computed in a transposed layout
    (`W · Xᵀ` laid out as features by batch) meets the row-major product `X · Wᵀ`. -/
theorem matmul_zero_apply_comm {φ₁ φ₂ : FTy} (prec : Option ContractPrecision) (W : FVec Ideal ⟨2, ![M, K]⟩ φ₁)
    (X : FVec Ideal ⟨2, ![K, N]⟩ φ₂) (p : Fin M) (c : Fin N) :
    matmul (DotDims.plain M K N) prec W X (constant (F := Ideal) ⟨2, ![M, N]⟩ .f32 0x00000000#32) (ix2 p c)
      = ∑ k : Fin K, X (ix2 k c) * W (ix2 p k) := by
  rw [matmul_zero_apply]
  exact Finset.sum_congr rfl fun k _ => mul_comm _ _

/-- A host product, at an entry. -/
theorem dotGeneral_apply {φ₁ φ₂ : FTy} (prec : Option ContractPrecision) (W : FVec Ideal ⟨2, ![M, K]⟩ φ₁)
    (X : FVec Ideal ⟨2, ![K, N]⟩ φ₂) (p : Fin M) (c : Fin N) :
    Host.dotGeneral (DotDims.plain M K N) prec W X (ix2 p c) = ∑ k : Fin K, W (ix2 p k) * X (ix2 k c) := by
  simp only [Host.dotGeneral]
  rw [Ideal.dotGeneral_apply]
  exact sum_contr M K N W X p c

end Cert.LibPlainMatmul

end
-- ==== Proof.LibUnitAxisCasts.lean ====
/-
  Reshapes that only add or drop a unit axis, read at an entry.

  Dropping the leading unit axis of a `[1, a, b]` array gives the `[a, b]` array whose entry `(p, c)` is the
  operand's entry `(0, p, c)`; turning an `[a]` vector into an `[a, 1]` column gives the column whose entry `(p, 0)` is
  the vector's entry `p`. Both hold because a reshape keeps every entry's row-major position.
-/
import Idealize.ShloMosaic.Lib.Pipeline.Value
import Idealize.ShloMosaic.Lib.ValueIdx

namespace Cert.LibUnitAxisCasts

open Idealize.ShloMosaic Idealize.ShloMosaic.ValueIdx

/-- `[1, a, b] → [a, b]`: entry `(p, c)` is the operand's `(0, p, c)`. -/
theorem shapeCast_1ab_ab_apply {α : Type} {a b : ℕ} (v : (⟨3, ![1, a, b]⟩ : Shape).Idx → α)
    (h : (⟨3, ![1, a, b]⟩ : Shape).ShapeCasts ⟨2, ![a, b]⟩) (p : Fin a) (c : Fin b) :
    shapeCast ⟨2, ![a, b]⟩ v h (ix2 p c) = v (ix3 (0 : Fin 1) p c) :=
  shapeCast_apply v h (ix2 p c) (ix3 (0 : Fin 1) p c) (by
    rw [Shape.rowMajor_val_three, Shape.rowMajor_val_two]
    show ((0 : ℕ) * a + p.val) * b + c.val = p.val * b + c.val
    rw [Nat.zero_mul, Nat.zero_add])

/-- `[a] → [a, 1]`: entry `(p, 0)` is the operand's `p`. -/
theorem shapeCast_a_a1_apply {α : Type} {a : ℕ} (v : (⟨1, ![a]⟩ : Shape).Idx → α)
    (h : (⟨1, ![a]⟩ : Shape).ShapeCasts ⟨2, ![a, 1]⟩) (p : Fin a) :
    shapeCast ⟨2, ![a, 1]⟩ v h (ix2 p (0 : Fin 1)) = v (ix1 p) :=
  shapeCast_apply v h (ix2 p (0 : Fin 1)) (ix1 p) (by
    rw [Shape.rowMajor_val_one, Shape.rowMajor_val_two]
    show p.val = p.val * 1 + 0
    omega)

end Cert.LibUnitAxisCasts
-- ==== Proof.LibLeadingUnitAxis.lean ====
/-
  A reshape that only adds a leading unit axis, read at an entry.

  Viewing an `[a, b]` array as a `[1, a, b]` array keeps every entry's row-major position, so entry `(0, p, c)` of the
  result is the operand's entry `(p, c)`. (The companion of the reading that drops a leading unit axis.)
-/
import Idealize.ShloMosaic.Lib.Pipeline.Value
import Idealize.ShloMosaic.Lib.ValueIdx

namespace Cert.LibLeadingUnitAxis

open Idealize.ShloMosaic Idealize.ShloMosaic.ValueIdx

/-- `[a, b] → [1, a, b]`: entry `(0, p, c)` is the operand's `(p, c)`. -/
theorem shapeCast_ab_1ab_apply {α : Type} {a b : ℕ} (v : (⟨2, ![a, b]⟩ : Shape).Idx → α)
    (h : (⟨2, ![a, b]⟩ : Shape).ShapeCasts ⟨3, ![1, a, b]⟩) (p : Fin a) (c : Fin b) :
    shapeCast ⟨3, ![1, a, b]⟩ v h (ix3 (0 : Fin 1) p c) = v (ix2 p c) :=
  shapeCast_apply v h (ix3 (0 : Fin 1) p c) (ix2 p c) (by
    rw [Shape.rowMajor_val_two, Shape.rowMajor_val_three]
    show p.val * b + c.val = ((0 : ℕ) * a + p.val) * b + c.val
    rw [Nat.zero_mul, Nat.zero_add])

end Cert.LibLeadingUnitAxis
-- ==== Proof.Payload.lean ====
/-
  The kernel body at one entry of its output tile.

  At a grid point the body holds a tile of 512 token rows of one expert (as a [1, 512, 2048] block), that expert's fused
  gate/up matrix ([1, 2048, 2048]) and its down matrix ([1, 1024, 2048]). It multiplies the tile by the gate/up matrix,
  splits the product into its gate half (columns 0..1023) and up half (columns 1024..2047), forms (gate · σ(gate)) · up,
  and multiplies by the down matrix. Narrowing a value to a shorter float format changes nothing on the extended reals,
  and both products start from a zero accumulator, so entry (0, p, c) of the result is `MoeSpec.entry` of row `p` of the
  tile, the gate/up matrix, and column `c` of the down matrix.
-/
import proofs.«159281_j63660005262007_1_alg».proof.Proof.Gen.KernelIdeal.Skeleton
import proofs.«159281_j63660005262007_1_alg».proof.Proof.Core
import proofs.«159281_j63660005262007_1_alg».proof.Proof.LibPlainMatmul
import proofs.«159281_j63660005262007_1_alg».proof.Proof.LibUnitAxisCasts
import proofs.«159281_j63660005262007_1_alg».proof.Proof.LibLeadingUnitAxis
import Idealize.ShloMosaic.Lib.Pipeline.Value
import Idealize.ShloMosaic.Lib.ValueIdx

noncomputable section

namespace Cert.KernelIdeal.Body

open Cert.KernelIdeal Cert.KernelIdeal.Gen Idealize.ShloMosaic Idealize.ShloMosaic.ValueIdx Cert.MoeSpec
open Cert.LibUnitAxisCasts Cert.LibLeadingUnitAxis
open scoped BigOperators

/-- Both products contract the left operand's second axis with the right operand's first. -/
theorem gateup_dims : dot_S512x2048_S2048x2048_S512x2048_1_0_0_1_n_n = DotDims.plain 512 2048 2048 := rfl
theorem down_dims : dot_S512x1024_S1024x2048_S512x2048_1_0_0_1_n_n = DotDims.plain 512 1024 2048 := rfl

/-- The tile's product with the gate/up matrix at `(p, f)`: row `p` of the tile against column `f`. -/
theorem gateup_apply (x0 : FVec Ideal S1x512x2048 .bf16) (x1 : FVec Ideal S1x2048x2048 .bf16) (p : Fin 512) (f : Fin 2048) :
    matmul dot_S512x2048_S2048x2048_S512x2048_1_0_0_1_n_n none
        (shapeCast S512x2048 x0 shapeCasts_S1x512x2048_S512x2048) (shapeCast S2048x2048 x1 shapeCasts_S1x2048x2048_S2048x2048)
        (constant (F := Ideal) S512x2048 .f32 0x00000000#32) (ix2 p f)
      = ∑ k : Fin 2048, x0 (ix3 (0 : Fin 1) p k) * x1 (ix3 (0 : Fin 1) k f) := by
  rw [gateup_dims]
  refine (Cert.LibPlainMatmul.matmul_zero_apply 512 2048 2048 none _ _ p f).trans ?_
  refine Finset.sum_congr rfl fun k _ => ?_
  rw [shapeCast_1ab_ab_apply, shapeCast_1ab_ab_apply]

/-- The gate half of a [512, 2048] product at `(p, i)` is its column `i`. -/
theorem gate_half_apply (v : FVec Ideal S512x2048 .f32) (p : Fin 512) (i : Fin 1024) :
    extractStridedSlice S512x1024 ![0, 0] v slices_S512x2048_o0_0_S512x1024 (ix2 p i) = v (ix2 p (gateCol i)) :=
  extractStridedSlice_apply ![0, 0] v slices_S512x2048_o0_0_S512x1024 (ix2 p i) (ix2 p (gateCol i)) (fun a => match a with
    | ⟨0, _⟩ => by show p.val = 0 + p.val; omega
    | ⟨1, _⟩ => by show i.val = 0 + i.val; omega)

/-- The up half at `(p, i)` is column `1024 + i`. -/
theorem up_half_apply (v : FVec Ideal S512x2048 .f32) (p : Fin 512) (i : Fin 1024) :
    extractStridedSlice S512x1024 ![0, 1024] v slices_S512x2048_o0_1024_S512x1024 (ix2 p i) = v (ix2 p (upCol i)) :=
  extractStridedSlice_apply ![0, 1024] v slices_S512x2048_o0_1024_S512x1024 (ix2 p i) (ix2 p (upCol i)) (fun a => match a with
    | ⟨0, _⟩ => by show p.val = 0 + p.val; omega
    | ⟨1, _⟩ => by show 1024 + i.val = 1024 + i.val; rfl)

/-- The activation at `(p, i)` from a [512, 2048] gate/up product `v`: `(g · σ(g)) · u` with `g` the product's column `i`
    and `u` its column `1024 + i`; narrowing to a shorter float format does not change it. -/
theorem activation_apply (v : FVec Ideal S512x2048 .f32) (p : Fin 512) (i : Fin 1024) :
    (truncf .bf16
        (mulf (mulf (extractStridedSlice S512x1024 ![0, 0] v slices_S512x2048_o0_0_S512x1024)
            (logistic (extractStridedSlice S512x1024 ![0, 0] v slices_S512x2048_o0_0_S512x1024)))
          (extractStridedSlice S512x1024 ![0, 1024] v slices_S512x2048_o0_1024_S512x1024))
        bitsLt_bf16_f32 : FVec Ideal S512x1024 .bf16) (ix2 p i)
      = (v (ix2 p (gateCol i)) * Ideal.logistic (v (ix2 p (gateCol i)))) * v (ix2 p (upCol i)) := by
  show (extractStridedSlice S512x1024 ![0, 0] v slices_S512x2048_o0_0_S512x1024 (ix2 p i)
        * Ideal.logistic (extractStridedSlice S512x1024 ![0, 0] v slices_S512x2048_o0_0_S512x1024 (ix2 p i)))
      * extractStridedSlice S512x1024 ![0, 1024] v slices_S512x2048_o0_1024_S512x1024 (ix2 p i) = _
  rw [gate_half_apply, up_half_apply]

/-- THE BODY AT AN ENTRY: entry `(0, p, c)` of what the body stores is the layer's entry for row `p` of the tile. -/
theorem body_apply (x0 : FVec Ideal S1x512x2048 .bf16) (x1 : FVec Ideal S1x2048x2048 .bf16) (x2 : FVec Ideal S1x1024x2048 .bf16)
    (p : Fin 512) (c : Fin 2048) :
    k0_pay1 (F := Ideal) x0 x1 x2 (ix3 (0 : Fin 1) p c)
      = entry (fun k => x0 (ix3 (0 : Fin 1) p k)) (fun k f => x1 (ix3 (0 : Fin 1) k f)) (fun i => x2 (ix3 (0 : Fin 1) i c)) := by
  unfold k0_pay1
  refine (shapeCast_ab_1ab_apply _ shapeCasts_S512x2048_S1x512x2048 p c).trans ?_
  refine (congrFun (congrArg (fun D => matmul D none _ _ _) down_dims) (ix2 p c)).trans ?_
  refine (Cert.LibPlainMatmul.matmul_zero_apply 512 1024 2048 none _ _ p c).trans ?_
  unfold entry
  refine Finset.sum_congr rfl fun i _ => ?_
  refine congrArg₂ (· * ·) ((activation_apply _ p i).trans ?_) (shapeCast_1ab_ab_apply x2 shapeCasts_S1x1024x2048_S1024x2048 i c)
  rw [gateup_apply, gateup_apply]

end Cert.KernelIdeal.Body

end
-- ==== Proof.Blocks.lean ====
/-
  From the kernel's 32 tiles to its whole output array.

  The grid is (expert, tile): point `t` works on expert `e(t)` and on rows `512·s(t) … 512·s(t) + 511` of that expert's
  group. Its token block is rows of the regrouped token array, its two weight blocks are expert `e(t)`'s whole matrices, and
  the block it writes back is the same rows of the output. Since an output entry of the layer depends only on its own token
  row and its expert's matrices (`MoeSpec.core`), what point `t` writes back is block `t` of ONE whole-array function; the 32
  blocks tile the [8, 2048, 2048] output, so after the run the output array is that function.
-/
import proofs.«159281_j63660005262007_1_alg».proof.Proof.Gen.KernelIdeal.Frame
import proofs.«159281_j63660005262007_1_alg».proof.Proof.Payload
import Idealize.ShloMosaic.Lib.Pipeline.Value

noncomputable section

namespace Cert.KernelIdeal.Blocks

open Cert.KernelIdeal Cert.KernelIdeal.Gen Idealize.ShloMosaic Idealize.ShloMosaic.TcCoe Idealize.SL.Sem
open Idealize.ShloMosaic.ValueIdx Cert.MoeSpec
open Idealize.ShloMosaic.Pipeline (Dat)

variable (m : (ℓ : Loc nD τ sig) → Buf (Elt Ideal) ℓ)

theorem zero_offsets : (![0, 0, 0] : Fin 3 → Nat) = fun _ => 0 := funext fun a => by fin_cases a <;> rfl

/-- The four index maps over the grid: every window follows the output's expert coordinate; the token window also follows
    its tile coordinate; nothing is cut along the feature axes; and the coordinates stay in range. -/
theorem index_facts : ∀ t : Fin cfg0.N,
    win0_0.index t (0 : Fin 3) = win0_3.index t (0 : Fin 3) ∧ win0_0.index t (1 : Fin 3) = win0_3.index t (1 : Fin 3)
    ∧ win0_0.index t (2 : Fin 3) = 0
    ∧ win0_1.index t (0 : Fin 3) = win0_3.index t (0 : Fin 3) ∧ win0_1.index t (1 : Fin 3) = 0 ∧ win0_1.index t (2 : Fin 3) = 0
    ∧ win0_2.index t (0 : Fin 3) = win0_3.index t (0 : Fin 3) ∧ win0_2.index t (1 : Fin 3) = 0 ∧ win0_2.index t (2 : Fin 3) = 0
    ∧ win0_3.index t (2 : Fin 3) = 0 ∧ win0_3.index t (0 : Fin 3) ≤ 7 ∧ win0_3.index t (1 : Fin 3) ≤ 3 :=
  (by decide +kernel : ∀ t : Fin grid0.N, _)

/-- Every (expert, tile) pair is some point's. -/
theorem index_onto : ∀ (q0 : Fin 8) (q1 : Fin 4), ∃ t : Fin cfg0.N, win0_3.index t = ![q0.val, q1.val, 0] :=
  (by decide +kernel : ∀ (q0 : Fin 8) (q1 : Fin 4), ∃ t : Fin grid0.N, win0_3.index t = ![q0.val, q1.val, 0])

/-- The expert point `t` works on. -/
def expertOf (t : Fin cfg0.N) : Fin 8 := ⟨win0_3.index t (0 : Fin 3), by have := (index_facts t).2.2.2.2.2.2.2.2.2.2.1; omega⟩

/-- Row `p` of point `t`'s tile, as a row of its expert's group. -/
def rowOf (t : Fin cfg0.N) (p : Fin 512) : Fin 2048 :=
  ⟨win0_3.index t (1 : Fin 3) * 512 + p.val, by have := (index_facts t).2.2.2.2.2.2.2.2.2.2.2; have := p.isLt; omega⟩

/-! ## Where a block's entries sit in the arrays -/

theorem out_emb (t : Fin cfg0.N) (p : Fin 512) (q : Fin 2048) :
    ((cfg0.win 3).blk t).view.emb (ix3 (0 : Fin 1) p q) = ix3 (expertOf t) (rowOf t p) q := by
  obtain ⟨-, -, -, -, -, -, -, -, -, e9, -, -⟩ := index_facts t
  funext a; apply Fin.ext
  match a with
  | ⟨0, _⟩ => show win0_3.index t (0 : Fin 3) * 1 + 1 * 0 = win0_3.index t (0 : Fin 3); omega
  | ⟨1, _⟩ => show win0_3.index t (1 : Fin 3) * 512 + 1 * p.val = win0_3.index t (1 : Fin 3) * 512 + p.val; omega
  | ⟨2, _⟩ => show win0_3.index t (2 : Fin 3) * 2048 + 1 * q.val = q.val; omega

theorem tokens_emb (t : Fin cfg0.N) (p : Fin 512) (k : Fin 2048) :
    ((cfg0.win 0).blk t).view.emb (ix3 (0 : Fin 1) p k) = ix3 (expertOf t) (rowOf t p) k := by
  obtain ⟨e0, e1, e2, -, -, -, -, -, -, -, -, -⟩ := index_facts t
  funext a; apply Fin.ext
  match a with
  | ⟨0, _⟩ => show win0_0.index t (0 : Fin 3) * 1 + 1 * 0 = win0_3.index t (0 : Fin 3); omega
  | ⟨1, _⟩ => show win0_0.index t (1 : Fin 3) * 512 + 1 * p.val = win0_3.index t (1 : Fin 3) * 512 + p.val; omega
  | ⟨2, _⟩ => show win0_0.index t (2 : Fin 3) * 2048 + 1 * k.val = k.val; omega

theorem gateup_emb (t : Fin cfg0.N) (k f : Fin 2048) :
    ((cfg0.win 1).blk t).view.emb (ix3 (0 : Fin 1) k f) = ix3 (expertOf t) k f := by
  obtain ⟨-, -, -, e3, e4, e5, -, -, -, -, -, -⟩ := index_facts t
  funext a; apply Fin.ext
  match a with
  | ⟨0, _⟩ => show win0_1.index t (0 : Fin 3) * 1 + 1 * 0 = win0_3.index t (0 : Fin 3); omega
  | ⟨1, _⟩ => show win0_1.index t (1 : Fin 3) * 2048 + 1 * k.val = k.val; omega
  | ⟨2, _⟩ => show win0_1.index t (2 : Fin 3) * 2048 + 1 * f.val = f.val; omega

theorem down_emb (t : Fin cfg0.N) (i : Fin 1024) (q : Fin 2048) :
    ((cfg0.win 2).blk t).view.emb (ix3 (0 : Fin 1) i q) = ix3 (expertOf t) i q := by
  obtain ⟨-, -, -, -, -, -, e6, e7, e8, -, -, -⟩ := index_facts t
  funext a; apply Fin.ext
  match a with
  | ⟨0, _⟩ => show win0_2.index t (0 : Fin 3) * 1 + 1 * 0 = win0_3.index t (0 : Fin 3); omega
  | ⟨1, _⟩ => show win0_2.index t (1 : Fin 3) * 1024 + 1 * i.val = i.val; omega
  | ⟨2, _⟩ => show win0_2.index t (2 : Fin 3) * 2048 + 1 * q.val = q.val; omega

/-! ## The input blocks at a point, read off the arrays -/

theorem tokens_blk (c : Dev nD) (t : Fin cfg0.N) (p : Fin 512) (k : Fin 2048) :
    iblk m c 0 t (ix3 (0 : Fin 1) p k) = V m c main_v8 (ix3 (expertOf t) (rowOf t p) k) := by
  show V m c main_v8 (((cfg0.win 0).blk t).view.emb (ix3 (0 : Fin 1) p k)) = _
  rw [tokens_emb]

theorem gateup_blk (c : Dev nD) (t : Fin cfg0.N) (k f : Fin 2048) :
    iblk m c 1 t (ix3 (0 : Fin 1) k f) = V m c main_v9 (ix3 (expertOf t) k f) := by
  show V m c main_v9 (((cfg0.win 1).blk t).view.emb (ix3 (0 : Fin 1) k f)) = _
  rw [gateup_emb]

theorem down_blk (c : Dev nD) (t : Fin cfg0.N) (i : Fin 1024) (q : Fin 2048) :
    iblk m c 2 t (ix3 (0 : Fin 1) i q) = V m c main_v10 (ix3 (expertOf t) i q) := by
  show V m c main_v10 (((cfg0.win 2).blk t).view.emb (ix3 (0 : Fin 1) i q)) = _
  rw [down_emb]

/-! ## What a point writes back -/

/-- WHAT POINT `t` WRITES BACK is block `t` of the layer applied to the arrays the region finds. -/
theorem flushed_eq (c : Dev nD) (t : Fin cfg0.N) :
    (dats m 0 c).flushed 3 t
      = ((cfg0.win 3).blk t).view.read (Elt Ideal) (core (V m c main_v8) (V m c main_v9) (V m c main_v10)) := by
  show (cfg0.win 3).cut (grid0.coords t) ((dats m 0 c).after 3 t) = _
  rw [after0_3]
  unfold out0_3
  rw [View.canon_unit_zero zero_offsets]
  simp only [View.ld_unit_zero (S := S1x512x2048) zero_offsets, View.ld_unit_zero (S := S1x2048x2048) zero_offsets,
    View.ld_unit_zero (S := S1x1024x2048) zero_offsets]
  funext j
  obtain ⟨z, p, q, rfl⟩ : ∃ (z : Fin 1) (p : Fin 512) (q : Fin 2048), j = ix3 z p q := ⟨j 0, j 1, j 2, eq_ix3 j⟩
  obtain rfl : z = 0 := Subsingleton.elim _ _
  show k0_pay1 (F := Ideal) (iblk m c 0 t) (iblk m c 1 t) (iblk m c 2 t) (ix3 (0 : Fin 1) p q)
      = core (V m c main_v8) (V m c main_v9) (V m c main_v10) (((cfg0.win 3).blk t).view.emb (ix3 (0 : Fin 1) p q))
  rw [out_emb, core_apply]
  refine (Cert.KernelIdeal.Body.body_apply (iblk m c 0 t) (iblk m c 1 t) (iblk m c 2 t) p q).trans ?_
  have h0 : (fun k : Fin 2048 => iblk m c 0 t (ix3 (0 : Fin 1) p k)) = fun k => V m c main_v8 (ix3 (expertOf t) (rowOf t p) k) :=
    funext fun k => tokens_blk m c t p k
  have h1 : (fun (k f : Fin 2048) => iblk m c 1 t (ix3 (0 : Fin 1) k f)) = fun k f => V m c main_v9 (ix3 (expertOf t) k f) :=
    funext fun k => funext fun f => gateup_blk m c t k f
  have h2 : (fun i : Fin 1024 => iblk m c 2 t (ix3 (0 : Fin 1) i q)) = fun i => V m c main_v10 (ix3 (expertOf t) i q) :=
    funext fun i => down_blk m c t i q
  rw [h0, h1, h2]

/-! ## The blocks tile the output -/

/-- An index of the output array is in point `t`'s block iff each coordinate is in the block's range on its axis. -/
theorem mem_blk (t : Fin cfg0.N) (i : S8x2048x2048.Idx) :
    i ∈ ((cfg0.win 3).blk t).view.set ↔ ∀ a : Fin 3, win0_3.index t a * S1x512x2048.size a ≤ (i a).val
      ∧ (i a).val < win0_3.index t a * S1x512x2048.size a + S1x512x2048.size a := by
  show i ∈ ((View.whole main_v11).slice (win0_3.rect t)).set ↔ _
  rw [View.set_slice_whole, Rect.mem_set_unit]
  exact Iff.rfl

/-- Every entry of the output is under some point's block: expert `i 0`, tile `(i 1) / 512`. -/
theorem covered (i : S8x2048x2048.Idx) :
    ∃ t : Fin cfg0.N, (cfg0.win 3).flush t = true ∧ i ∈ ((cfg0.win 3).blk t).view.set := by
  have hi0 : (i 0).val < 8 := (i 0).isLt
  have hi1 : (i 1).val < 2048 := (i 1).isLt
  have hi2 : (i 2).val < 2048 := (i 2).isLt
  obtain ⟨t, ht⟩ := index_onto ⟨(i 0).val, hi0⟩ ⟨(i 1).val / 512, by omega⟩
  have q0 : win0_3.index t (0 : Fin 3) = (i 0).val := congrFun ht 0
  have q1 : win0_3.index t (1 : Fin 3) = (i 1).val / 512 := congrFun ht 1
  have q2 : win0_3.index t (2 : Fin 3) = 0 := congrFun ht 2
  refine ⟨t, flush0_3 t, ?_⟩
  rw [mem_blk]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 512 ≤ (i 1).val ∧ (i 1).val < win0_3.index t (1 : Fin 3) * 512 + 512; omega
  | ⟨2, _⟩ => show win0_3.index t (2 : Fin 3) * 2048 ≤ (i 2).val ∧ (i 2).val < win0_3.index t (2 : Fin 3) * 2048 + 2048; omega

/-- THE OUTPUT ARRAY after the run is the layer applied to the arrays the region finds. -/
theorem final (c : Dev nD) :
    (dats m 0 c).arrAt 3 cfg0.N = core (V m c main_v8) (V m c main_v9) (V m c main_v10) :=
  (dats m 0 c).arrAt_eq_of_cover 3 (core (V m c main_v8) (V m c main_v9) (V m c main_v10))
    (fun t _ => flushed_eq m c t) covered

end Cert.KernelIdeal.Blocks

end
-- ==== Proof.HostSides.lean ====
/-
  The host side of the kernel program: what it does to its arguments before its one region and to the region's output
  after it, read at the ideal instance.

  Before the region the program turns the token indices into row numbers (a negative index `i` means row `i + 16384`),
  gathers the rows of the hidden states in that order, regroups the `16384 × 2048` array of gathered rows as
  `8 × 2048 × 2048` (expert, row within the expert's group, feature) and narrows the three float arrays to a shorter
  format, which on the extended reals changes nothing. After the region it regroups the region's `8 × 2048 × 2048`
  output as `16384 × 2048` and scatters its rows into an array of zeros at the same row numbers.

  The two chains are named here (`head`, `tail`) and never opened: the statements below say only that the arrays the
  region reads are `head` of the arguments and the two weight arrays themselves, and that the program's result is
  `tail` of what the region leaves in its output array.
-/
import proofs.«159281_j63660005262007_1_alg».proof.Proof.Gen.KernelIdeal.Frame
import Idealize.ShloMosaic.Lib.Pipeline.Value
import Idealize.ShloMosaic.Lib.ValueIdx
import Idealize.ShloMosaic.Lib.StableHlo.Run

noncomputable section

open Idealize.ShloMosaic Idealize.ShloMosaic.TcCoe Idealize.SL.Sem
open Idealize.ShloMosaic.Pipeline (Dat)

namespace Cert.KernelIdeal.HostValue

open Cert.KernelIdeal Cert.KernelIdeal.Gen

variable (m : (ℓ : Loc nD τ sig) → Buf (Elt Ideal) ℓ)

/-- The wrapped index column: a negative index `i` is replaced by `i + 16384`, and the vector of row numbers is laid
    out as a column. -/
def wrapIdx (idx : IVec S16384 32) : IVec S16384x1 32 :=
  broadcastInDim S16384x1 ![0] bcast_S16384_S16384x1_0
    (select (cmpi .slt idx (broadcastInDim S16384 ![] bcast_S_S16384 (constantI S_ 32 0#32)))
      (addi idx (broadcastInDim S16384 ![] bcast_S_S16384 (constantI S_ 32 16384#32))) idx)

/-- Tokens gathered into expert order and regrouped: row `r` of expert `e`'s group is the row of `x` that the wrapped
    index at position `2048 e + r` names. -/
def head (x : FVec Ideal S16384x2048 .f32) (idx : IVec S16384 32) : FVec Ideal S8x2048x2048 .f32 :=
  shapeCast S8x2048x2048
    (Host.gather gather_S16384x2048_S16384x1_S16384x2048_1_0_n_n_0_1_12048 x (wrapIdx idx))
    shapeCasts_S16384x2048_S8x2048x2048

/-- Rows regrouped and scattered back into a zero array: the `8 × 2048 × 2048` array `y` read as `16384` rows, each
    written over the row of a zero array that its wrapped index names. -/
def tail (idx : IVec S16384 32) (y : FVec Ideal S8x2048x2048 .f32) : FVec Ideal S16384x2048 .f32 :=
  Host.scatter scatter_S16384x2048_S16384x1_S16384x2048_1_0_0_1 (fun _ b => b)
    (broadcastInDim S16384x2048 ![] bcast_S_S16384x2048 (constant (F := Ideal) S_ .f32 0x00000000#32))
    (wrapIdx idx)
    (shapeCast S16384x2048 y shapeCasts_S8x2048x2048_S16384x2048)

/-- The first window's array, as the region finds it, is the gathered and regrouped tokens. -/
theorem tokens_eq (c : Dev nD) :
    (V m c main_v8 : S8x2048x2048.Idx → EReal)
      = head (m ((c : Thread nD τ).loc main_arg0)) (m ((c : Thread nD τ).loc main_arg1)) := by
  show StableHlo.after hostOps0 (fun b => m (c, b)) (Proc.devRef .tc main_v8) = _
  after_results
  unfold head wrapIdx
  rfl

/-- The second window's array is the fused gate/up weights as launched. -/
theorem gateup_eq (c : Dev nD) :
    (V m c main_v9 : S8x2048x2048.Idx → EReal) = m ((c : Thread nD τ).loc main_arg2) := by
  show StableHlo.after hostOps0 (fun b => m (c, b)) (Proc.devRef .tc main_v9) = _
  after_results
  rfl

/-- The third window's array is the down weights as launched. -/
theorem down_eq (c : Dev nD) :
    (V m c main_v10 : S8x1024x2048.Idx → EReal) = m ((c : Thread nD τ).loc main_arg3) := by
  show StableHlo.after hostOps0 (fun b => m (c, b)) (Proc.devRef .tc main_v10) = _
  after_results
  rfl

/-- The lines after the region, from any contents `W` of the buffers: the result array is `tail` of the index array and of
    the region's output array as `W` has them. -/
theorem after_tail (W : Valuation τ sig (Elt Ideal)) :
    StableHlo.after hostOps1 W (Proc.devRef .tc main_v20)
      = tail (W (Proc.devRef .tc main_arg1)) (W (Proc.devRef .tc main_v11)) := by
  after_results
  unfold tail wrapIdx
  rfl

/-- The program's result: `tail` of the index array as launched and of what the region leaves in its output array. -/
theorem result_eq (c : Dev nD) :
    Pipeline.afterTail₀ cfgs (dats m) 0 (V0 m) [hostOps1] c main_v20
      = tail (m ((c : Thread nD τ).loc main_arg1)) ((dats m 0 c).arrAt 3 cfg0.N) := by
  unfold Pipeline.afterTail₀
  refine (after_tail _).trans ?_
  refine congrArg₂ tail ?_ ?_
  · exact (Pipeline.withArrays_of_ne _ c (V0 m c) _ main_arg1
      (by exact (by decide : ∀ w, Pipeline.arrRef spec0 w ≠ main_arg1))).trans (V_main_arg1 m c)
  · exact Pipeline.withArrays_arr spec0 launch0.win.arr_inj c _ _ 3

end Cert.KernelIdeal.HostValue

end
-- ==== Proof.RefCore.lean ====
/-
  The reference program's expert products are the layer of `Cert.MoeSpec.core`.

  Write `X` for the gathered, regrouped token array (stage 7 of the reference program). Stage 8 multiplies, expert by
  expert, `X` by the fused gate/up matrix; stages 9 and 10 are its gate half (columns `i`) and up half (columns
  `1024 + i`); the called function spells `1 / (1 + e^(-g))` on the gate half, the ones being the single-precision word of
  one; stage 11 is `g · (1 / (1 + e^(-g)))`, stage 12 that times the up half, and stage 13 multiplies, expert by expert, by
  the down matrix. Read at one output entry `(e, r, h)` this is

      ∑ i, ((g i · σ(g i)) · u i) · Wd e i h,    g i = ∑ k, X e r k · Wgu e k i,    u i = ∑ k, X e r k · Wgu e k (1024 + i),

  which is `Cert.MoeSpec.entry` term by term: the sums run over the same index sets in the same order and the factors stand
  in the same order, so the only law used is that the logistic function is the quotient `1 / (1 + e^(-t))`.
-/
import proofs.«159281_j63660005262007_1_alg».proof.Proof.Gen.ReferenceIdeal.Read
import proofs.«159281_j63660005262007_1_alg».proof.Proof.Core
import Idealize.ShloMosaic.Lib.ValueIdx

noncomputable section

namespace Cert.ReferenceIdeal.RefValue

open Cert.ReferenceIdeal Cert.ReferenceIdeal.Gen Cert.ReferenceIdeal.Read
open Idealize.ShloMosaic Idealize.ShloMosaic.ValueIdx
open scoped BigOperators

/-! ## The index functions of the two products and the two slices, on indices given by coordinates -/

/-- The down product's left operand is read at the output's expert and row and the summation index. -/
theorem lidx_v13_ix3 (e : Fin 8) (r h : Fin 2048) (i : Fin 1024) :
    lidx_main_v13 (ix3 e r h) i = ix3 e r i :=
  funext fun a => Fin.ext (by match a with | ⟨0, _⟩ => rfl | ⟨1, _⟩ => rfl | ⟨2, _⟩ => rfl)

/-- The down product's right operand is read at the output's expert, the summation index and the output's column. -/
theorem ridx_v13_ix3 (e : Fin 8) (r h : Fin 2048) (i : Fin 1024) :
    ridx_main_v13 (ix3 e r h) i = ix3 e i h :=
  funext fun a => Fin.ext (by match a with | ⟨0, _⟩ => rfl | ⟨1, _⟩ => rfl | ⟨2, _⟩ => rfl)

/-- The gate half reads column `i` of the gate/up product. -/
theorem idx_v9_ix3 (e : Fin 8) (r : Fin 2048) (i : Fin 1024) :
    idx_main_v9 (ix3 e r i) = ix3 e r (Cert.MoeSpec.gateCol i) :=
  funext fun a => Fin.ext (by match a with | ⟨0, _⟩ => rfl | ⟨1, _⟩ => rfl | ⟨2, _⟩ => rfl)

/-- The up half reads column `1024 + i` of the gate/up product. -/
theorem idx_v10_ix3 (e : Fin 8) (r : Fin 2048) (i : Fin 1024) :
    idx_main_v10 (ix3 e r i) = ix3 e r (Cert.MoeSpec.upCol i) :=
  funext fun a => Fin.ext (by match a with | ⟨0, _⟩ => rfl | ⟨1, _⟩ => rfl | ⟨2, _⟩ => rfl)

/-- The gate/up product's left operand is read at the output's expert and row and the summation index. -/
theorem lidx_v8_ix3 (e : Fin 8) (r f k : Fin 2048) :
    lidx_main_v8 (ix3 e r f) k = ix3 e r k :=
  funext fun a => Fin.ext (by match a with | ⟨0, _⟩ => rfl | ⟨1, _⟩ => rfl | ⟨2, _⟩ => rfl)

/-- The gate/up product's right operand is read at the output's expert, the summation index and the output's column. -/
theorem ridx_v8_ix3 (e : Fin 8) (r f k : Fin 2048) :
    ridx_main_v8 (ix3 e r f) k = ix3 e k f :=
  funext fun a => Fin.ext (by match a with | ⟨0, _⟩ => rfl | ⟨1, _⟩ => rfl | ⟨2, _⟩ => rfl)

/-! ## The stages at an entry -/

/-- Entry `(e, r, f)` of the gate/up product is row `r` of expert `e`'s tokens times column `f` of its gate/up matrix. -/
theorem v8_ix3 (x0 : (⟨S16384x2048, .f32⟩ : BufTy).Contents (Elt Ideal)) (x1 : (⟨S16384, .i32⟩ : BufTy).Contents (Elt Ideal))
    (x2 : (⟨S8x2048x2048, .f32⟩ : BufTy).Contents (Elt Ideal)) (e : Fin 8) (r f : Fin 2048) :
    val_main_v8 (F := Ideal) x0 x1 x2 (ix3 e r f)
      = ∑ k : Fin 2048, val_main_v7 (F := Ideal) x0 x1 (ix3 e r k) * x2 (ix3 e k f) := by
  rw [val_main_v8_apply]
  refine Finset.sum_congr rfl fun k _ => ?_
  rw [lidx_v8_ix3, ridx_v8_ix3]

/-- Entry `(e, r, i)` of the gated product: `(g · σ(g)) · u` with `g` and `u` the gate/up product's columns `i` and
    `1024 + i`. -/
theorem v12_ix3 (x0 : (⟨S16384x2048, .f32⟩ : BufTy).Contents (Elt Ideal)) (x1 : (⟨S16384, .i32⟩ : BufTy).Contents (Elt Ideal))
    (x2 : (⟨S8x2048x2048, .f32⟩ : BufTy).Contents (Elt Ideal)) (e : Fin 8) (r : Fin 2048) (i : Fin 1024) :
    val_main_v12 (F := Ideal) x0 x1 x2 (ix3 e r i)
      = (val_main_v8 (F := Ideal) x0 x1 x2 (ix3 e r (Cert.MoeSpec.gateCol i))
          * Ideal.logistic (val_main_v8 (F := Ideal) x0 x1 x2 (ix3 e r (Cert.MoeSpec.gateCol i))))
        * val_main_v8 (F := Ideal) x0 x1 x2 (ix3 e r (Cert.MoeSpec.upCol i)) := by
  rw [val_main_v12_apply, val_main_v11_apply, val_main_call0_v5_apply, val_main_call0_v4_apply,
    val_main_call0_cst_0_apply, val_main_call0_v3_apply, val_main_call0_v2_apply, val_main_call0_cst_apply,
    val_main_call0_v1_apply, val_main_call0_v0_apply, val_main_v9_apply, val_main_v10_apply, idx_v9_ix3, idx_v10_ix3]
  simp only [Ideal.mulf_def, Ideal.addf_def, Ideal.hostDivf_def, Ideal.hostUnary_exp_def, Ideal.hostNegf_def,
    Ideal.negf_def, Ideal.ofBits_def]
  rw [Cert.MoeSpec.logistic_eq_quotient]

/-- The reference program's down product is the layer applied to the regrouped tokens, the gate/up matrices and the down
    matrices. -/
theorem down_product_eq_core (x0 : (⟨S16384x2048, .f32⟩ : BufTy).Contents (Elt Ideal)) (x1 : (⟨S16384, .i32⟩ : BufTy).Contents (Elt Ideal)) (x2 : (⟨S8x2048x2048, .f32⟩ : BufTy).Contents (Elt Ideal)) (x3 : (⟨S8x1024x2048, .f32⟩ : BufTy).Contents (Elt Ideal)) :
    Read.val_main_v13 (F := Ideal) x0 x1 x2 x3 = Cert.MoeSpec.core (Read.val_main_v7 (F := Ideal) x0 x1) x2 x3 := by
  funext j
  obtain ⟨e, r, h, rfl⟩ : ∃ (e : Fin 8) (r : Fin 2048) (h : Fin 2048), j = ValueIdx.ix3 e r h :=
    ⟨j 0, j 1, j 2, ValueIdx.eq_ix3 j⟩
  rw [val_main_v13_apply, Cert.MoeSpec.core_apply]
  unfold Cert.MoeSpec.entry
  refine Finset.sum_congr rfl fun i _ => ?_
  rw [lidx_v13_ix3, ridx_v13_ix3, v12_ix3, v8_ix3, v8_ix3]

end Cert.ReferenceIdeal.RefValue

end
-- ==== Proof.lean ====
/-
  A mixture-of-experts feed-forward layer as a tiled kernel, against its whole-array reference.

  Both programs start by the same steps: token indices are wrapped (a negative index counts from the end), the rows of the
  hidden states are gathered by them and regrouped into eight groups of 2048 rows, one group per expert. Both end by the
  same steps: the [8, 2048, 2048] result is regrouped into 16384 rows, which are scattered into a zero array by the same
  wrapped indices. In between, the reference multiplies each group by its expert's fused gate/up matrix, forms
  (gate · σ(gate)) · up from the two halves of the product, σ written out as 1 / (1 + e^(-gate)), and multiplies by the
  expert's down matrix; the kernel does the same on 32 tiles of 512 rows, with its operands narrowed to a shorter float
  format (which changes nothing on the extended reals) and σ as one operation.

  The proof: an output entry of the layer depends only on its own token row and its expert's matrices (`MoeSpec.core`).
  The kernel body at an entry of its tile is that entry (Proof/Payload.lean); a tile's blocks are restrictions of the whole
  arrays and the 32 output blocks tile the output, so the kernel's output array is `core` of the arrays its region finds
  (Proof/Blocks.lean), which are the regrouped gathered tokens and the two weight arrays (Proof/HostSides.lean). The
  reference's two batched products, read entry by entry, are `core` of the same arrays, by the one law that σ is the
  quotient it spells out (Proof/RefCore.lean). The common first and last steps are carried as they stand and never opened;
  no step uses that the inputs are finite, and the order of every sum and product is the same on both sides.
-/
import proofs.«159281_j63660005262007_1_alg».proof.Defs
import proofs.«159281_j63660005262007_1_alg».proof.Proof.Gen.Kernel
import proofs.«159281_j63660005262007_1_alg».proof.Proof.Gen.Kernel.Skeleton
import proofs.«159281_j63660005262007_1_alg».proof.Proof.Gen.Kernel.Launch
import proofs.«159281_j63660005262007_1_alg».proof.Proof.Gen.Kernel.Points
import proofs.«159281_j63660005262007_1_alg».proof.Proof.Gen.Kernel.Frame
import proofs.«159281_j63660005262007_1_alg».proof.Proof.Gen.KernelIdeal
import proofs.«159281_j63660005262007_1_alg».proof.Proof.Gen.KernelIdeal.Skeleton
import proofs.«159281_j63660005262007_1_alg».proof.Proof.Gen.KernelIdeal.Launch
import proofs.«159281_j63660005262007_1_alg».proof.Proof.Gen.KernelIdeal.Points
import proofs.«159281_j63660005262007_1_alg».proof.Proof.Gen.KernelIdeal.Frame
import proofs.«159281_j63660005262007_1_alg».proof.Proof.Gen.ReferenceIdeal
import proofs.«159281_j63660005262007_1_alg».proof.Proof.Gen.Pre_finite_inputs
import proofs.«159281_j63660005262007_1_alg».proof.Proof.Gen.ReferenceIdeal.Run
import proofs.«159281_j63660005262007_1_alg».proof.Proof.Gen.ReferenceIdeal.Read
import proofs.«159281_j63660005262007_1_alg».proof.Proof.Blocks
import proofs.«159281_j63660005262007_1_alg».proof.Proof.HostSides
import proofs.«159281_j63660005262007_1_alg».proof.Proof.RefCore
import Idealize.ShloMosaic.Adequacy
import Idealize.ShloMosaic.Init

noncomputable section

namespace Cert.Proof

open Idealize.ShloMosaic Idealize.ShloMosaic.TcCoe Idealize.SL.Sem

/-! ## The kernel's run, with its result named -/

section KernelRun

open Cert.KernelIdeal Cert.KernelIdeal.Gen Cert.KernelIdeal.HostValue

/-- The result of the layer as both programs compute it, from the four argument arrays. -/
def result (x0 : FVec Ideal S16384x2048 .f32) (x1 : IVec S16384 32) (x2 : FVec Ideal S8x2048x2048 .f32)
    (x3 : FVec Ideal S8x1024x2048 .f32) : FVec Ideal S16384x2048 .f32 :=
  tail x1 (Cert.MoeSpec.core (head x0 x1) x2 x3)

/-- Every weakly fair execution of the kernel's program ends with its result array at `result` of the arguments, the
    arguments unchanged: the region leaves `core` of the arrays it finds, the lines after it scatter that. -/
theorem kernel_run (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v20)
          = result (m ((c.tc : Thread nD τ).loc main_arg0)) (m ((c.tc : Thread nD τ).loc main_arg1))
              (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨((h c).2 main_v20 (Pipeline.mem_restRefs_of main_v20 (by decide) (by decide))).trans
        ((result_eq m c).trans (congrArg (tail (m ((c.tc : Thread nD τ).loc main_arg1)))
          ((Cert.KernelIdeal.Blocks.final m c).trans (by rw [tokens_eq m c, gateup_eq m c, down_eq m c])))),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end KernelRun

/-! ## The reference's result is the same function -/

section Reference

open Cert.ReferenceIdeal Cert.ReferenceIdeal.Gen Cert.ReferenceIdeal.Read

/-- The reference's last stage is `result` of its arguments: its down product is `core` of the regrouped gathered tokens
    and the weight arrays, and its first and last steps are the kernel program's, operation for operation. -/
theorem reference_result (x0 : (⟨S16384x2048, .f32⟩ : BufTy).Contents (Elt Ideal)) (x1 : (⟨S16384, .i32⟩ : BufTy).Contents (Elt Ideal))
    (x2 : (⟨S8x2048x2048, .f32⟩ : BufTy).Contents (Elt Ideal)) (x3 : (⟨S8x1024x2048, .f32⟩ : BufTy).Contents (Elt Ideal)) :
    val_main_v22 (F := Ideal) x0 x1 x2 x3 = result x0 x1 x2 x3 := by
  unfold val_main_v22 val_main_v14
  rw [Cert.ReferenceIdeal.RefValue.down_product_eq_core]
  rfl

end Reference

/-! ## The claims -/

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- From memories agreeing on the arguments both programs end at `result` of those arguments. -/
theorem algebraic : Cert.algebraic_KernelIdeal_ReferenceIdeal := by
  intro m ρ m' ρ' _ hagree
  refine ⟨_, kernel_run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v22_eq, (hagree c).1, (hagree c).2.1, (hagree c).2.2.1, (hagree c).2.2.2]
  exact reference_result _ _ _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
